-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S10000x2048 : Shape := ⟨2, ![10000, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S10000x2048 : S_.BroadcastsInDim S10000x2048 (![] : Fin 0 → Fin S10000x2048.rank)
  reducesTo_S10000x2048_S_d0_1 : S10000x2048.ReducesTo [0, 1] S_

variable [Facts]

def fn {F : FTy → Type} [FloatOps F] (main_arg0 : FVec F S8192x2048 .f32) (main_arg1 : FVec F S10000x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S10000x2048 .f32 := Host.absf main_arg1
  let main_cst_0 : FVec F S_ .f32 := constant S_ .f32 0x7F800000#32
  let main_v5 : FVec F S10000x2048 .f32 := broadcastInDim S10000x2048 ![] bcast_S_S10000x2048 main_cst_0
  let main_v6 : IVec S10000x2048 1 := cmpf .olt main_v4 main_v5
  let main_c_1 : IVec S_ 1 := constantI S_ 1 1#1
  let main_v7 : IVec S_ 1 := (fun x v => Host.reduce IntOp.andi x v reducesTo_S10000x2048_S_d0_1 h_S_) main_v6 main_c_1
  let main_v8 : IVec S_ 1 := andi main_v3 main_v7
  main_v8
-- ==== Kernel.lean ====
abbrev S8192x2048 : Shape := ⟨2, ![8192, 2048]⟩
abbrev S10000x2048 : Shape := ⟨2, ![10000, 2048]⟩
abbrev S_ : Shape := ⟨0, ![]⟩
abbrev S10240x2048 : Shape := ⟨2, ![10240, 2048]⟩
abbrev S8192 : Shape := ⟨1, ![8192]⟩
abbrev S8192x1 : Shape := ⟨2, ![8192, 1]⟩
abbrev S10240 : Shape := ⟨1, ![10240]⟩
abbrev S10240x1 : Shape := ⟨2, ![10240, 1]⟩
abbrev S1x10240 : Shape := ⟨2, ![1, 10240]⟩
abbrev S8192x10240 : Shape := ⟨2, ![8192, 10240]⟩
abbrev S256x2048 : Shape := ⟨2, ![256, 2048]⟩
abbrev S2048x2048 : Shape := ⟨2, ![2048, 2048]⟩
abbrev S256x1 : Shape := ⟨2, ![256, 1]⟩
abbrev S1x2048 : Shape := ⟨2, ![1, 2048]⟩
abbrev S8192x10000 : Shape := ⟨2, ![8192, 10000]⟩

abbrev nBuf : Space → Nat
  | .hbm => 18
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S10000x2048, .f32⟩
  | .hbm, ⟨2, _⟩ => ⟨S_, .i32⟩
  | .hbm, ⟨3, _⟩ => ⟨S_, .f32⟩
  | .hbm, ⟨4, _⟩ => ⟨S10240x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S10240x2048, .f32⟩
  | .hbm, ⟨10, _⟩ => ⟨S_, .f32⟩
  | .hbm, ⟨11, _⟩ => ⟨S10240, .f32⟩
  | .hbm, ⟨12, _⟩ => ⟨S10240x1, .f32⟩
  | .hbm, ⟨13, _⟩ => ⟨S1x10240, .f32⟩
  | .hbm, ⟨14, _⟩ => ⟨S8192x2048, .bf16⟩
  | .hbm, ⟨15, _⟩ => ⟨S10240x2048, .bf16⟩
  | .hbm, ⟨16, _⟩ => ⟨S8192x10240, .f32⟩
  | .hbm, ⟨17, _⟩ => ⟨S8192x10000, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S2048x2048, .bf16⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  pads_S10000x2048_S10240x2048_02400_000 : S10000x2048.Pads (![0, 0] : Fin 2 → Nat) ![240, 0] ![0, 0] S10240x2048
  h_S_ : 0 < S_.numel
  reducesTo_S8192x2048_S8192_d1 : S8192x2048.ReducesTo [1] S8192
  bcast_S8192_S8192x1_0 : S8192.BroadcastsInDim S8192x1 (![0] : Fin 1 → Fin S8192x1.rank)
  reducesTo_S10240x2048_S10240_d1 : S10240x2048.ReducesTo [1] S10240
  bcast_S10240_S10240x1_0 : S10240.BroadcastsInDim S10240x1 (![0] : Fin 1 → Fin S10240x1.rank)
  transposes_S10240x1_S1x10240_1_0 : S10240x1.Transposes [1, 0] S1x10240
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S8192x10240_S8192x10000_0_0 : S8192x10240.Slices ![0, 0] S8192x10000
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .bf16 = 32 ∨ (Rect.block (s := S8192x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S10240x2048.size a
  hwx0_1 : ∀ i : grid0.Coords, EltTy.bits .bf16 = 32 ∨ (Rect.block (s := S10240x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x10240.size a
  hwx0_3 : ∀ i : grid0.Coords, EltTy.bits .f32 = 32 ∨ (Rect.block (s := S1x10240) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x10240.size a
  hwx0_4 : ∀ i : grid0.Coords, EltTy.bits .f32 = 32 ∨ (Rect.block (s := S8192x10240) S256x2048.size (cc0_transform_4 i) (hinb0_4 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v8) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S10000x2048 : Shape := ⟨2, ![10000, 2048]⟩
abbrev S_ : Shape := ⟨0, ![]⟩
abbrev S8192 : Shape := ⟨1, ![8192]⟩
abbrev S8192x1 : Shape := ⟨2, ![8192, 1]⟩
abbrev S10000 : Shape := ⟨1, ![10000]⟩
abbrev S8192x10000 : Shape := ⟨2, ![8192, 10000]⟩
abbrev S1x10000 : Shape := ⟨2, ![1, 10000]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S10000x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S10000x2048, .f32⟩
  | .hbm, ⟨7, _⟩ => ⟨S_, .f32⟩
  | .hbm, ⟨8, _⟩ => ⟨S10000, .f32⟩
  | .hbm, ⟨9, _⟩ => ⟨S8192x10000, .f32⟩
  | .hbm, ⟨10, _⟩ => ⟨S1x10000, .f32⟩
  | .hbm, ⟨11, _⟩ => ⟨S8192x10000, .f32⟩
  | .hbm, ⟨12, _⟩ => ⟨S8192x10000, .f32⟩
  | .hbm, ⟨13, _⟩ => ⟨S8192x10000, .f32⟩
  | .hbm, ⟨14, _⟩ => ⟨S_, .f32⟩
  | .hbm, ⟨15, _⟩ => ⟨S8192x10000, .f32⟩
  | .hbm, ⟨16, _⟩ => ⟨S8192x10000, .f32⟩
  | .hbm, ⟨17, _⟩ => ⟨S8192x10000, .f32⟩
  | .hbm, ⟨18, _⟩ => ⟨S8192x10000, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  reducesTo_S10000x2048_S10000_d1 : S10000x2048.ReducesTo [1] S10000
  bcast_S10000_S1x10000_1 : S10000.BroadcastsInDim S1x10000 (![1] : Fin 1 → Fin S1x10000.rank)
  bcast_S8192x1_S8192x10000_0_1 : S8192x1.BroadcastsInDim S8192x10000 (![0, 1] : Fin 2 → Fin S8192x10000.rank)
  bcast_S1x10000_S8192x10000_0_1 : S1x10000.BroadcastsInDim S8192x10000 (![0, 1] : Fin 2 → Fin S8192x10000.rank)
  bcast_S_S8192x10000 : S_.BroadcastsInDim S8192x10000 (![] : Fin 0 → Fin S8192x10000.rank)
  dot_S8192x2048_S10000x2048_S8192x10000_1_1_0_0_n_n_wf : DotDims.WF S8192x2048 S10000x2048 S8192x10000 [1] [1] [0] [0] [] []

variable [Facts₀]

def dot_S8192x2048_S10000x2048_S8192x10000_1_1_0_0_n_n : DotDims S8192x2048 S10000x2048 S8192x10000 where
  lhsContracting := [1]
  rhsContracting := [1]
  lhsNonContracting := [0]
  rhsNonContracting := [0]
  lhsBatch := []
  rhsBatch := []
  wf := dot_S8192x2048_S10000x2048_S8192x10000_1_1_0_0_n_n_wf

class Facts : Prop extends Facts₀ where

variable [Facts]
-- ==== Proof.Spec.lean ====
/-
  The mathematics shared by the two programs, with no program in sight.

  For two rows `f`, `g` of extended reals (a sample and a class mean, `n` features each), a scale `t` and a
  starting value `z` for the sums, write
      sq f    = z + ∑ k, f k · f k            (the row's squared norm, summed from `z`)
      cross   = ∑ k, f k · g k                (the inner product of the two rows).
  One program computes `t · cross − sq f − sq g`, the other `−((sq f + sq g) − t · cross)`.  Over the reals the two
  agree by distributing the sign.  On the extended reals that law fails at infinities (`⊤ − ⊤`), so it is proved for
  FINITE entries: every entry a real number.  Finiteness passes to products and to finite sums, so every quantity above is
  a real, and the law is the real one.
-/
import Idealize.ShloMosaic.PureOps.Ideal.Laws
import Idealize.ShloMosaic.Lib.ValueIdx

noncomputable section

namespace Cert.SqDist

open Idealize.ShloMosaic Idealize.ShloMosaic.ValueIdx

/-- An extended real that is a real number. -/
def IsReal (e : EReal) : Prop := ∃ r : ℝ, e = (r : EReal)

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem isReal_zero : IsReal 0 := ⟨0, rfl⟩

/-- A finite sum of reals is a real. -/
theorem isReal_sum {n : ℕ} (f : Fin n → EReal) (hf : ∀ k, IsReal (f k)) : IsReal (∑ k, f k) := by
  classical
  refine Finset.induction_on (Finset.univ : Finset (Fin n)) ?_ ?_
  · rw [Finset.sum_empty]; exact isReal_zero
  · intro a s ha ih
    rw [Finset.sum_insert ha]
    exact (hf a).add ih

/-- The zero pattern of the 32-bit format is the real 0, and the pattern of 2.0 is the real 2. -/
theorem isReal_zeroLit : IsReal (Ideal.ofBits .f32 0x00000000#32) := ⟨0, Ideal.ofBits_zero_f32⟩

theorem twoLit_eq : Ideal.ofBits .f32 0x40000000#32 = ((2 : ℝ) : EReal) := by
  simp [Ideal.ofBits, Ideal.ieee, -EReal.coe_mul]; norm_num

theorem isReal_twoLit : IsReal (Ideal.ofBits .f32 0x40000000#32) := ⟨2, twoLit_eq⟩

variable {n : ℕ}

/-- A row's squared norm, summed from `z`. -/
def sq (z : EReal) (f : Fin n → EReal) : EReal := z + ∑ k, f k * f k

/-- The inner product of two rows. -/
def cross (f g : Fin n → EReal) : EReal := ∑ k, f k * g k

theorem isReal_sq {z : EReal} {f : Fin n → EReal} (hz : IsReal z) (hf : ∀ k, IsReal (f k)) : IsReal (sq z f) :=
  hz.add (isReal_sum _ fun k => (hf k).mul (hf k))

theorem isReal_cross {f g : Fin n → EReal} (hf : ∀ k, IsReal (f k)) (hg : ∀ k, IsReal (g k)) : IsReal (cross f g) :=
  isReal_sum _ fun k => (hf k).mul (hg k)

/-- Row `p` of an `[a, n]` array, as a function of the feature index. -/
def row {a n : ℕ} (x : (⟨2, ![a, n]⟩ : Shape).Idx → EReal) (p : Fin a) : Fin n → EReal := fun k => x (ix2 p k)

/-- The sign distributed, over reals: `−((a + b) − t·c) = t·c − a − b`. -/
theorem neg_dist_eq {a b c t : EReal} (ha : IsReal a) (hb : IsReal b) (hc : IsReal c) (ht : IsReal t) :
    -((a + b) - t * c) = t * c - a - b := by
  obtain ⟨a, rfl⟩ := ha; obtain ⟨b, rfl⟩ := hb; obtain ⟨c, rfl⟩ := hc; obtain ⟨t, rfl⟩ := ht
  have h : -((a + b) - t * c) = t * c - a - b := by ring
  exact_mod_cast h

/-- The two programs' forms agree on finite rows. -/
theorem forms_eq {t z : EReal} {f g : Fin n → EReal} (ht : IsReal t) (hz : IsReal z)
    (hf : ∀ k, IsReal (f k)) (hg : ∀ k, IsReal (g k)) :
    -((sq z f + sq z g) - t * cross f g) = t * cross f g - sq z f - sq z g :=
  neg_dist_eq (isReal_sq hz hf) (isReal_sq hz hg) (isReal_cross hf hg) ht

/-- The common result: at `(b, c)`, twice the inner product of sample `b` and mean `c` less their two squared
    norms — the negative of the squared distance between them. -/
def negSqDist {a b n : ℕ} (x : (⟨2, ![a, n]⟩ : Shape).Idx → EReal) (μ : (⟨2, ![b, n]⟩ : Shape).Idx → EReal) :
    (⟨2, ![a, b]⟩ : Shape).Idx → EReal := fun i =>
  Ideal.ofBits .f32 0x40000000#32 * cross (row x (i 0)) (row μ (i 1)) - sq (Ideal.ofBits .f32 0x00000000#32) (row x (i 0))
    - sq (Ideal.ofBits .f32 0x00000000#32) (row μ (i 1))

/-- An extended real whose absolute value is below the pattern of `+∞` is a real: the precondition's test of one entry. -/
theorem isReal_of_abs_lt_inf {e : EReal} (h : Ideal.cmp .olt (max e (-e)) (Ideal.ofBits .f32 0x7F800000#32) = 1#1) : IsReal e := by
  have htop : Ideal.ofBits .f32 0x7F800000#32 = ⊤ := by simp [Ideal.ofBits, Ideal.ieee]
  rw [htop] at h
  have hlt : max e (-e) < ⊤ := by
    by_contra hn
    simp [Ideal.cmp, hn] at h
  induction e using EReal.rec with
  | bot => simp at hlt
  | top => simp at hlt
  | coe r => exact ⟨r, rfl⟩

end Cert.SqDist

end
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.Payload.lean ====
/-
  What the kernel body stores, read at an index of its `[256, 2048]` output block.

  The body loads a block `X` of 256 samples, a block `M` of 2048 class means, the samples' squared norms as a column
  `s` and the means' squared norms as a row `r`, multiplies `X` by `M` contracting the feature axis of both, and
  stores `2 · (X Mᵀ) − s − r`, the column spread along the rows and the row along the columns.  At `(p, q)`:
      2 · ⟨X_p, M_q⟩ − s(p, 0) − r(0, q).
-/
import proofs.«132380_j39298950758648_2_alg».proof.Proof.Gen.KernelIdeal.Skeleton
import proofs.«132380_j39298950758648_2_alg».proof.Proof.Spec
import proofs.«132380_j39298950758648_2_alg».proof.Proof.LibIndexReads
import proofs.«132380_j39298950758648_2_alg».proof.Proof.LibColumnBroadcast
import Idealize.ShloMosaic.Lib.ValueLayout

noncomputable section

namespace Cert.SqDist.Body

open Idealize.ShloMosaic Idealize.ShloMosaic.ValueIdx
open Cert.KernelIdeal Cert.KernelIdeal.Gen

theorem lhs_row (i : S256x2048.Idx) (κ : (dot_S256x2048_S2048x2048_S256x2048_1_1_0_0_n_n).contr.Idx) :
    ((dot_S256x2048_S2048x2048_S256x2048_1_1_0_0_n_n).lhsIdx i κ 0).val = (i 0).val := by
  unfold DotDims.lhsIdx
  rw [dif_neg (show ¬(0 : Fin S256x2048.rank) ∈ (dot_S256x2048_S2048x2048_S256x2048_1_1_0_0_n_n).lhsBatch by decide),
    dif_pos (show (0 : Fin S256x2048.rank) ∈ (dot_S256x2048_S2048x2048_S256x2048_1_1_0_0_n_n).lhsNonContracting by decide)]
  rfl

theorem lhs_feat (i : S256x2048.Idx) (κ : (dot_S256x2048_S2048x2048_S256x2048_1_1_0_0_n_n).contr.Idx) :
    ((dot_S256x2048_S2048x2048_S256x2048_1_1_0_0_n_n).lhsIdx i κ 1).val = (κ ⟨0, by decide⟩).val :=
  (dot_S256x2048_S2048x2048_S256x2048_1_1_0_0_n_n).lhsIdx_val_of_single rfl i κ

theorem rhs_row (i : S256x2048.Idx) (κ : (dot_S256x2048_S2048x2048_S256x2048_1_1_0_0_n_n).contr.Idx) :
    ((dot_S256x2048_S2048x2048_S256x2048_1_1_0_0_n_n).rhsIdx i κ 0).val = (i 1).val := by
  unfold DotDims.rhsIdx
  rw [dif_neg (show ¬(0 : Fin S2048x2048.rank) ∈ (dot_S256x2048_S2048x2048_S256x2048_1_1_0_0_n_n).rhsBatch by decide),
    dif_pos (show (0 : Fin S2048x2048.rank) ∈ (dot_S256x2048_S2048x2048_S256x2048_1_1_0_0_n_n).rhsNonContracting by decide)]
  rfl

theorem rhs_feat (i : S256x2048.Idx) (κ : (dot_S256x2048_S2048x2048_S256x2048_1_1_0_0_n_n).contr.Idx) :
    ((dot_S256x2048_S2048x2048_S256x2048_1_1_0_0_n_n).rhsIdx i κ 1).val = (κ ⟨0, by decide⟩).val :=
  (dot_S256x2048_S2048x2048_S256x2048_1_1_0_0_n_n).rhsIdx_val_of_single rfl i κ

/-- The left operand's index for output `(p, q)` and feature `k` is `(p, k)`. -/
theorem lhs_at (p : Fin 256) (q k : Fin 2048) :
    (dot_S256x2048_S2048x2048_S256x2048_1_1_0_0_n_n).lhsIdx (ix2 p q)
      ((contrEquiv1 dot_S256x2048_S2048x2048_S256x2048_1_1_0_0_n_n 2048 rfl rfl).symm k) = ix2 p k := by
  have hk := contrEquiv1_symm_val dot_S256x2048_S2048x2048_S256x2048_1_1_0_0_n_n 2048 rfl rfl k
  exact funext fun a => Fin.ext (by
    match a with
    | ⟨0, _⟩ => exact lhs_row _ _
    | ⟨1, _⟩ => exact (lhs_feat _ _).trans hk)

/-- The right operand's is `(q, k)`: the product contracts the second axis of both operands. -/
theorem rhs_at (p : Fin 256) (q k : Fin 2048) :
    (dot_S256x2048_S2048x2048_S256x2048_1_1_0_0_n_n).rhsIdx (ix2 p q)
      ((contrEquiv1 dot_S256x2048_S2048x2048_S256x2048_1_1_0_0_n_n 2048 rfl rfl).symm k) = ix2 q k := by
  have hk := contrEquiv1_symm_val dot_S256x2048_S2048x2048_S256x2048_1_1_0_0_n_n 2048 rfl rfl k
  exact funext fun a => Fin.ext (by
    match a with
    | ⟨0, _⟩ => exact rhs_row _ _
    | ⟨1, _⟩ => exact (rhs_feat _ _).trans hk)

/-- The stored value at `(p, q)`. -/
theorem stored_apply (X : Vec Ideal S256x2048 .bf16) (M : Vec Ideal S2048x2048 .bf16) (s : Vec Ideal S256x1 .f32)
    (r : Vec Ideal S1x2048 .f32) (p : Fin 256) (q : Fin 2048) :
    k0_pay1 (F := Ideal) X M s r (ix2 p q)
      = Ideal.ofBits .f32 0x40000000#32 * cross (row X p) (row M q) - s (ix2 p (0 : Fin 1)) - r (ix2 (0 : Fin 1) q) := by
  unfold k0_pay1
  simp only [shapeCast_self]
  show (Ideal.ofBits .f32 0x40000000#32 : EReal)
        * FloatOps.matmul dot_S256x2048_S2048x2048_S256x2048_1_1_0_0_n_n none X M (constant S256x2048 .f32 0x00000000#32) (ix2 p q)
      - broadcastTo S256x2048 s broadcasts_S256x1_S256x2048 (ix2 p q)
      - broadcastTo S256x2048 r broadcasts_S1x2048_S256x2048 (ix2 p q) = _
  rw [Cert.IndexReads.matmul_zero_single dot_S256x2048_S2048x2048_S256x2048_1_1_0_0_n_n 2048 rfl rfl none X M (ix2 p q)
      (fun k => ix2 p k) (fun k => ix2 q k) (lhs_at p q) (rhs_at p q),
    Cert.WeightUpdate.Layout.broadcastTo_a1_ab_apply, broadcastTo_1b_ab_apply]
  rfl

end Cert.SqDist.Body

end
-- ==== Proof.Region.lean ====
/-
  The launch as a whole: the `[8192, 10240]` array it fills, as ONE function of the four arrays its windows read.

  With `A₀` (samples), `A₁` (padded class means), `A₂` (a column) and `A₃` (a row), the array holds at `(b, c)`
      2 · ⟨A₀ row b, A₁ row c⟩ − A₂(b, 0) − A₃(0, c).
  Grid point `t` has block indices `(i, j)`; it writes the block of rows `256 i …` and columns `2048 j …`, computed
  from rows `256 i …` of `A₀` and `A₂` and rows / columns `2048 j …` of `A₁` / `A₃`: so what it writes is that block of the
  one function, and the 32 × 5 blocks tile the array.
-/
import proofs.«132380_j39298950758648_2_alg».proof.Proof.Gen.KernelIdeal.Frame
import proofs.«132380_j39298950758648_2_alg».proof.Proof.Payload
import Idealize.ShloMosaic.Lib.Pipeline.Value

noncomputable section

namespace Cert.SqDist.Region

open Idealize.ShloMosaic Idealize.ShloMosaic.TcCoe Idealize.ShloMosaic.ValueIdx Idealize.SL.Sem
open Idealize.ShloMosaic.Pipeline (Dat)
open Cert.KernelIdeal Cert.KernelIdeal.Gen

/-- The filled array as one function of the windows' arrays. -/
def wide (A0 : S8192x2048.Idx → EReal) (A1 : S10240x2048.Idx → EReal) (A2 : S8192x1.Idx → EReal)
    (A3 : S1x10240.Idx → EReal) : S8192x10240.Idx → EReal := fun i =>
  Ideal.ofBits .f32 0x40000000#32 * cross (row A0 (i 0)) (row A1 (i 1)) - A2 (ix2 (i 0) (0 : Fin 1)) - A3 (ix2 (0 : Fin 1) (i 1))

/-- What the body stores at `j` is the one function at `i`, when the loaded blocks hold the arrays' entries that
    `i`'s row and column name. -/
theorem stored_eq_wide (X : Vec Ideal S256x2048 .bf16) (M : Vec Ideal S2048x2048 .bf16) (s : Vec Ideal S256x1 .f32)
    (r : Vec Ideal S1x2048 .f32) (A0 : S8192x2048.Idx → EReal) (A1 : S10240x2048.Idx → EReal) (A2 : S8192x1.Idx → EReal)
    (A3 : S1x10240.Idx → EReal) (j : S256x2048.Idx) (i : S8192x10240.Idx)
    (h0 : ∀ k : Fin 2048, X (ix2 (j 0) k) = A0 (ix2 (i 0) k)) (h1 : ∀ k : Fin 2048, M (ix2 (j 1) k) = A1 (ix2 (i 1) k))
    (h2 : s (ix2 (j 0) (0 : Fin 1)) = A2 (ix2 (i 0) (0 : Fin 1))) (h3 : r (ix2 (0 : Fin 1) (j 1)) = A3 (ix2 (0 : Fin 1) (i 1))) :
    k0_pay1 (F := Ideal) X M s r j = wide A0 A1 A2 A3 i := by
  obtain ⟨p, q, rfl⟩ : ∃ (p : Fin 256) (q : Fin 2048), j = ix2 p q := ⟨j 0, j 1, eq_ix2 j⟩
  rw [Cert.SqDist.Body.stored_apply]
  unfold wide
  have e0 : row X p = row A0 (i 0) := funext h0
  have e1 : row M q = row A1 (i 1) := funext h1
  rw [e0, e1]
  exact congrArg₂ (· - ·) (congrArg (_ - ·) h2) h3

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 160 grid points: the first and third windows move with the output's row block, the
    second and fourth with its column block, each on one axis only. -/
theorem idx_facts : ∀ t : Fin cfg0.N, win0_0.index t (0 : Fin 2) = win0_4.index t (0 : Fin 2)
    ∧ win0_0.index t (1 : Fin 2) = 0
    ∧ win0_1.index t (0 : Fin 2) = win0_4.index t (1 : Fin 2)
    ∧ win0_1.index t (1 : Fin 2) = 0
    ∧ win0_2.index t (0 : Fin 2) = win0_4.index t (0 : Fin 2)
    ∧ win0_2.index t (1 : Fin 2) = 0
    ∧ win0_3.index t (0 : Fin 2) = 0
    ∧ win0_3.index t (1 : Fin 2) = win0_4.index t (1 : Fin 2)
    ∧ win0_4.index t (0 : Fin 2) ≤ 31 ∧ win0_4.index t (1 : Fin 2) ≤ 4 :=
  (by decide +kernel : ∀ t : Fin grid0.N, _)

/-- Every one of the 32 × 5 blocks is some point's. -/
theorem idx_onto : ∀ (q0 : Fin 32) (q1 : Fin 5), ∃ t : Fin cfg0.N, win0_4.index t = ![q0.val, q1.val] :=
  (by decide +kernel : ∀ (q0 : Fin 32) (q1 : Fin 5), ∃ t : Fin grid0.N, win0_4.index t = ![q0.val, q1.val])

/-- What point `t` writes back is block `t` of the one function of the windows' arrays. -/
theorem flushed_eq (c : Dev nD) (t : Fin cfg0.N) :
    (dats m 0 c).flushed 4 t = ((cfg0.win 4).blk t).view.read (Elt Ideal)
      (wide (V m c main_v8) (V m c main_v9) (V m c main_v3) (V m c main_v7)) := by
  show (cfg0.win 4).cut (grid0.coords t) ((dats m 0 c).after 4 t) = _
  rw [after0_4]
  unfold out0_4
  rw [View.canon_unit_zero hz]
  simp only [View.ld_unit_zero (S := S256x2048) hz, View.ld_unit_zero (S := S2048x2048) hz,
    View.ld_unit_zero (S := S256x1) hz, View.ld_unit_zero (S := S1x2048) hz]
  obtain ⟨e0, e1, e2, e3, e4, e5, e6, e7, e8, e9⟩ := idx_facts t
  funext j
  show k0_pay1 (F := Ideal) (iblk m c 0 t) (iblk m c 1 t) (iblk m c 2 t) (iblk m c 3 t) j
    = wide (V m c main_v8) (V m c main_v9) (V m c main_v3) (V m c main_v7) (((cfg0.win 4).blk t).view.emb j)
  have hj0 : (j 0).val < 256 := (j 0).isLt
  have hj1 : (j 1).val < 2048 := (j 1).isLt
  refine stored_eq_wide _ _ _ _ _ _ _ _ j _ (fun k => ?_) (fun k => ?_) ?_ ?_
  · show V m c main_v8 (((cfg0.win 0).blk t).view.emb (ix2 (j 0) k)) = V m c main_v8 _
    refine congrArg _ (funext fun a => Fin.ext ?_)
    match a with
    | ⟨0, _⟩ => show win0_0.index t (0 : Fin 2) * 256 + 1 * (j 0).val = win0_4.index t (0 : Fin 2) * 256 + 1 * (j 0).val; omega
    | ⟨1, _⟩ => show win0_0.index t (1 : Fin 2) * 2048 + 1 * k.val = k.val; omega
  · show V m c main_v9 (((cfg0.win 1).blk t).view.emb (ix2 (j 1) k)) = V m c main_v9 _
    refine congrArg _ (funext fun a => Fin.ext ?_)
    match a with
    | ⟨0, _⟩ => show win0_1.index t (0 : Fin 2) * 2048 + 1 * (j 1).val = win0_4.index t (1 : Fin 2) * 2048 + 1 * (j 1).val; omega
    | ⟨1, _⟩ => show win0_1.index t (1 : Fin 2) * 2048 + 1 * k.val = k.val; omega
  · show V m c main_v3 (((cfg0.win 2).blk t).view.emb (ix2 (j 0) (0 : Fin 1))) = V m c main_v3 _
    refine congrArg _ (funext fun a => Fin.ext ?_)
    match a with
    | ⟨0, _⟩ => show win0_2.index t (0 : Fin 2) * 256 + 1 * (j 0).val = win0_4.index t (0 : Fin 2) * 256 + 1 * (j 0).val; omega
    | ⟨1, _⟩ => show win0_2.index t (1 : Fin 2) * 1 + 1 * 0 = 0; omega
  · show V m c main_v7 (((cfg0.win 3).blk t).view.emb (ix2 (0 : Fin 1) (j 1))) = V m c main_v7 _
    refine congrArg _ (funext fun a => Fin.ext ?_)
    match a with
    | ⟨0, _⟩ => show win0_3.index t (0 : Fin 2) * 1 + 1 * 0 = 0; omega
    | ⟨1, _⟩ => show win0_3.index t (1 : Fin 2) * 2048 + 1 * (j 1).val = win0_4.index t (1 : Fin 2) * 2048 + 1 * (j 1).val; omega

/-- An index of the array is in point `t`'s block iff each coordinate is in the block's range on its axis. -/
theorem mem_blk (t : Fin cfg0.N) (i : S8192x10240.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v10).slice (win0_4.rect t)).set ↔ _
  rw [View.set_slice_whole, Rect.mem_set_unit]
  exact Iff.rfl

/-- The blocks tile the array: index `(b, c)` is in the block of the point with block indices `(b / 256, c / 2048)`. -/
theorem covered (i : S8192x10240.Idx) :
    ∃ t : Fin cfg0.N, (cfg0.win 4).flush t = true ∧ i ∈ ((cfg0.win 4).blk t).view.set := by
  have hi0 : (i 0).val < 8192 := (i 0).isLt
  have hi1 : (i 1).val < 10240 := (i 1).isLt
  obtain ⟨t, ht⟩ := idx_onto ⟨(i 0).val / 256, by omega⟩ ⟨(i 1).val / 2048, by omega⟩
  have q0 : win0_4.index t (0 : Fin 2) = (i 0).val / 256 := congrFun ht 0
  have q1 : win0_4.index t (1 : Fin 2) = (i 1).val / 2048 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 2048 ≤ (i 1).val ∧ (i 1).val < win0_4.index t (1 : Fin 2) * 2048 + 2048; omega

/-- The array after the launch is the one function of the windows' arrays. -/
theorem filled (c : Dev nD) : (dats m 0 c).arrAt 4 cfg0.N
    = wide (V m c main_v8) (V m c main_v9) (V m c main_v3) (V m c main_v7) :=
  (dats m 0 c).arrAt_eq_of_cover 4 _ (fun t _ => flushed_eq m c t) covered

end Cert.SqDist.Region

end
-- ==== Proof.LibHostRowReads.lean ====
/-
  Three host operations on matrices, read at an index given by coordinates.

  * a host sum over the columns of an `[a, n]` array of extended reals, read at row `p`, is the initial value plus the
    sum over `k : Fin n` of the entries `(p, k)`;
  * an `[a]` vector placed as the column `[a, 1]` by `broadcast_in_dim` along axis 0 holds, at `(p, u)`, entry `p`;
  * an `[a, n]` array padded with extra rows BELOW (no low padding, no interior padding, columns untouched) holds, at
    a row that is one of the operand's, the operand's entry.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.HostRowReads

open Idealize.ShloMosaic Idealize.ShloMosaic.ValueIdx

/-- A host sum over the columns, read at row `p`: the initial value plus that row's entries summed. -/
theorem hostReduceAdd_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

variable {α : Type}

/-- A vector placed as a column: at `(p, u)` it holds the vector's entry `p`. -/
theorem broadcastInDim_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v _ _ fun ax => by
    match ax with
    | ⟨0, _⟩ =>
      show p.val = if a = 1 then 0 else p.val
      split
      · have := p.isLt; omega
      · rfl

/-- Rows appended below: at a row `c'` that is the operand's row `c`, the padded array holds the operand's entry. -/
theorem pad_rows_below_apply {a a' n e : ℕ} (x : (⟨2, ![a, n]⟩ : Shape).Idx → α) {u : Shape} (v : u.Idx → α)
    (h : (⟨2, ![a, n]⟩ : Shape).Pads (![0, 0] : Fin 2 → Nat) ![e, 0] ![0, 0] ⟨2, ![a', n]⟩) (hu : 0 < u.numel)
    (c : Fin a) (c' : Fin a') (hc : c'.val = c.val) (k : Fin n) :
    pad ⟨2, ![a', n]⟩ ![0, 0] ![e, 0] ![0, 0] x v h hu (ix2 c' k) = x (ix2 c k) :=
  pad_apply_of_inside _ _ _ x v h hu _ _ fun ax => by
    match ax with
    | ⟨0, _⟩ => show c'.val = 0 + c.val * (0 + 1); omega
    | ⟨1, _⟩ => show k.val = 0 + k.val * (0 + 1); omega

end Cert.HostRowReads

end
-- ==== Proof.Entry.lean ====
/-
  The four arrays the kernel's windows read, as the host lines before the launch leave them.

  From the samples `x` `[8192, 2048]` and the class means `μ` `[10000, 2048]`: the means get 240 rows appended
  (`μ⁺`, `[10240, 2048]`); the first two windows read `x` and `μ⁺` (a change of number format, which keeps every
  value); the third reads the column of the samples' squared norms; the fourth the row of the padded means' squared
  norms.  Read at the entries the result depends on: rows of `μ⁺` below 10000 are rows of `μ`.
-/
import proofs.«132380_j39298950758648_2_alg».proof.Proof.Gen.KernelIdeal.Frame
import proofs.«132380_j39298950758648_2_alg».proof.Proof.Spec
import proofs.«132380_j39298950758648_2_alg».proof.Proof.LibHostRowReads
import Idealize.ShloMosaic.Lib.ValueLayout
import Idealize.ShloMosaic.Lib.StableHlo.Run

noncomputable section

namespace Cert.SqDist.Entry

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The samples and the class means as launched. -/
abbrev xs (c : Dev nD) : S8192x2048.Idx → EReal := m ((c : Thread nD τ).loc main_arg0)
abbrev mus (c : Dev nD) : S10000x2048.Idx → EReal := m ((c : Thread nD τ).loc main_arg1)

/-- The class means with 240 rows appended. -/
def musPadded (c : Dev nD) : S10240x2048.Idx → EReal :=
  pad S10240x2048 ![0, 0] ![240, 0] ![0, 0] (mus m c) (sitofp (F := Ideal) .f32 (constantI S_ 32 0#32))
    pads_S10000x2048_S10240x2048_02400_000 h_S_

theorem win0_eq (c : Dev nD) :
    @Eq (S8192x2048.Idx → EReal) (V m c main_v8) (truncf (F := Ideal) (s := S8192x2048) (φ := .f32) .bf16 (xs m c) bitsLt_bf16_f32) := by
  dsimp only [V, V0]
  simp only [hostOps0, hostOps0_1, hostOps0_2, List.flatten_cons, List.flatten_nil, List.append_nil, List.cons_append,
    List.nil_append]
  after_results
  all_goals rfl

theorem win1_eq (c : Dev nD) :
    @Eq (S10240x2048.Idx → EReal) (V m c main_v9) (truncf (F := Ideal) (s := S10240x2048) (φ := .f32) .bf16 (musPadded m c) bitsLt_bf16_f32) := by
  dsimp only [V, V0]
  simp only [hostOps0, hostOps0_1, hostOps0_2, List.flatten_cons, List.flatten_nil, List.append_nil, List.cons_append,
    List.nil_append]
  after_results
  all_goals rfl

theorem win2_eq (c : Dev nD) :
    @Eq (S8192x1.Idx → EReal) (V m c main_v3) (broadcastInDim S8192x1 ![0] bcast_S8192_S8192x1_0
      (Host.reduceAdd (mulf (xs m c) (xs m c)) (constant (F := Ideal) S_ .f32 0x00000000#32) reducesTo_S8192x2048_S8192_d1 h_S_)) := by
  dsimp only [V, V0]
  simp only [hostOps0, hostOps0_1, hostOps0_2, List.flatten_cons, List.flatten_nil, List.append_nil, List.cons_append,
    List.nil_append]
  after_results
  all_goals rfl

theorem win3_eq (c : Dev nD) :
    @Eq (S1x10240.Idx → EReal) (V m c main_v7) (transpose S1x10240 [1, 0] (broadcastInDim S10240x1 ![0] bcast_S10240_S10240x1_0
      (Host.reduceAdd (mulf (musPadded m c) (musPadded m c)) (constant (F := Ideal) S_ .f32 0x00000000#32)
        reducesTo_S10240x2048_S10240_d1 h_S_)) transposes_S10240x1_S1x10240_1_0) := by
  dsimp only [V, V0]
  simp only [hostOps0, hostOps0_1, hostOps0_2, List.flatten_cons, List.flatten_nil, List.append_nil, List.cons_append,
    List.nil_append]
  after_results
  all_goals rfl

end Cert.SqDist.Entry

end
-- ==== Proof.Result.lean ====
/-
  The kernel program's result, entry by entry.

  After the launch the `[8192, 10240]` array is the one function of the windows' arrays; the host line after it keeps
  columns `0 … 9999`.  At `(b, c)` with `c < 10000` the windows' arrays are read back to the arguments: the sample rows
  and the mean rows unchanged (row `c` of the padded means is row `c` of the means), the column entry the squared norm of
  sample `b`, the row entry the squared norm of mean `c`.  So the result is `2 ⟨x_b, μ_c⟩ − sq x_b − sq μ_c`.
-/
import proofs.«132380_j39298950758648_2_alg».proof.Proof.Region
import proofs.«132380_j39298950758648_2_alg».proof.Proof.Entry

noncomputable section

namespace Cert.SqDist.Result

open Idealize.ShloMosaic Idealize.ShloMosaic.TcCoe Idealize.ShloMosaic.ValueIdx Idealize.SL.Sem
open Idealize.ShloMosaic.Pipeline (Dat)
open Cert.KernelIdeal Cert.KernelIdeal.Gen Cert.SqDist.Entry Cert.SqDist.Region

variable (m : (ℓ : Loc nD τ sig) → Buf (Elt Ideal) ℓ) (ρ : Dev nD → PrngReg)

/-- Sample row `b` as the first window's array holds it. -/
theorem row_win0 (c : Dev nD) (b : Fin 8192) : row (V m c main_v8) b = row (xs m c) b := by
  rw [win0_eq]; rfl

/-- Mean row `q` as the second window's array holds it, for a row below 10000. -/
theorem row_win1 (c : Dev nD) (q : Fin 10000) (q' : Fin 10240) (hq : q'.val = q.val) :
    row (V m c main_v9) q' = row (mus m c) q := by
  rw [win1_eq]
  funext k
  show musPadded m c (ix2 q' k) = mus m c (ix2 q k)
  exact Cert.HostRowReads.pad_rows_below_apply _ _ _ _ q q' hq k

/-- The third window's column at `b`: the squared norm of sample `b`. -/
theorem col_win2 (c : Dev nD) (b : Fin 8192) :
    V m c main_v3 (ix2 b (0 : Fin 1)) = sq (Ideal.ofBits .f32 0x00000000#32) (row (xs m c) b) := by
  rw [win2_eq, Cert.HostRowReads.broadcastInDim_col_apply,
    Cert.HostRowReads.hostReduceAdd_row _ _ reducesTo_S8192x2048_S8192_d1 (by decide)]
  rfl

/-- The fourth window's row at `q'`: the squared norm of mean `q`, for a column below 10000. -/
theorem row_win3 (c : Dev nD) (q : Fin 10000) (q' : Fin 10240) (hq : q'.val = q.val) :
    V m c main_v7 (ix2 (0 : Fin 1) q') = sq (Ideal.ofBits .f32 0x00000000#32) (row (mus m c) q) := by
  rw [win3_eq, transpose_ix2_apply, Cert.HostRowReads.broadcastInDim_col_apply,
    Cert.HostRowReads.hostReduceAdd_row _ _ reducesTo_S10240x2048_S10240_d1 (by decide)]
  show Ideal.ofBits .f32 0x00000000#32 + ∑ k : Fin 2048, musPadded m c (ix2 q' k) * musPadded m c (ix2 q' k) = _
  unfold sq row
  refine congrArg (_ + ·) (Finset.sum_congr rfl fun k _ => ?_)
  unfold musPadded
  rw [Cert.HostRowReads.pad_rows_below_apply _ _ _ _ q q' hq k]

/-- The kept columns of the filled array are the common result of the arguments. -/
theorem kept_eq (c : Dev nD) :
    extractStridedSlice S8192x10000 ![0, 0] (wide (V m c main_v8) (V m c main_v9) (V m c main_v3) (V m c main_v7))
        slices_S8192x10240_S8192x10000_0_0
      = negSqDist (xs m c) (mus m c) := by
  funext i
  obtain ⟨b, q, rfl⟩ : ∃ (b : Fin 8192) (q : Fin 10000), i = ix2 b q := ⟨i 0, i 1, eq_ix2 i⟩
  have hq : q.val < 10240 := by have := q.isLt; omega
  rw [slice2_axis1_apply 0 _ slices_S8192x10240_S8192x10000_0_0 b q ⟨q.val, hq⟩ (by simp)]
  unfold wide negSqDist
  show Ideal.ofBits .f32 0x40000000#32 * cross (row (V m c main_v8) b) (row (V m c main_v9) ⟨q.val, hq⟩)
      - V m c main_v3 (ix2 b (0 : Fin 1)) - V m c main_v7 (ix2 (0 : Fin 1) ⟨q.val, hq⟩) = _
  rw [row_win0, row_win1 m c q ⟨q.val, hq⟩ rfl, col_win2, row_win3 m c q ⟨q.val, hq⟩ rfl]

/-- After the run the result buffer holds the common result. -/
theorem result_eq (r : PUnit × MemSt nD τ sig (Elt Ideal))
    (h : Pipeline.FramePost cfgs (dats m) 0 (Pipeline.afterTail₀ cfgs (dats m) 0 (V0 m) [hostOps1]) r) (c : Dev nD) :
    @Eq (S8192x10000.Idx → EReal) (r.2.mem ((c : Thread nD τ).loc main_v11)) (negSqDist (xs m c) (mus m c)) := by
  refine ((h c).2 main_v11 (Pipeline.mem_restRefs_of main_v11 (by decide) (by decide))).trans ?_
  unfold Pipeline.afterTail₀
  show StableHlo.after hostOps1 _ (Proc.devRef .tc main_v11) = _
  after_results
  refine Eq.trans ?_ (kept_eq m c)
  exact congrArg (fun A => extractStridedSlice S8192x10000 ![0, 0] A slices_S8192x10240_S8192x10000_0_0)
    ((Pipeline.withArrays_arr spec0 launch0.win.arr_inj c (V0 m c) (fun w => (dats m 0 c).arrAt w cfg0.N) 4).trans (filled m c))

/-- The run, read: the result at the common function of the arguments, the arguments unchanged. -/
theorem run : θ_run defs (onTc (τ := τ) (main (F := Ideal))) ⟨m, fun _ => 0, ρ⟩ fun r => ∀ c : Dev nD,
      r.2.mem ((c : Thread nD τ).loc main_v11) = negSqDist (xs m c) (mus m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨result_eq m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.SqDist.Result

end
-- ==== Proof.RefSide.lean ====
/-
  The reference program read at an index.  At row `b` of the samples and row `c` of the class means it computes
      −((sq x_b + sq μ_c) − 2 · ⟨x_b, μ_c⟩),
  each squared norm a sum started from the zero literal, the scale the literal 2: its operations read one at a time
  (the generated stage lemmas), the broadcasts' index maps evaluated at the coordinates `(b, c)`.
-/
import proofs.«132380_j39298950758648_2_alg».proof.Proof.Gen.ReferenceIdeal.Read
import proofs.«132380_j39298950758648_2_alg».proof.Proof.Spec

noncomputable section

namespace Cert.SqDist.Ref

open Idealize.ShloMosaic Idealize.ShloMosaic.ValueIdx
open Cert.ReferenceIdeal Cert.ReferenceIdeal.Read

/-- The reference's result at `(b, c)`. -/
theorem result_apply (x : S8192x2048.Idx → EReal) (μ : S10000x2048.Idx → EReal) (b : Fin 8192) (c : Fin 10000) :
    val_main_v13 (F := Ideal) x μ (ix2 b c)
      = -((sq (Ideal.ofBits .f32 0x00000000#32) (row x b) + sq (Ideal.ofBits .f32 0x00000000#32) (row μ c))
          - Ideal.ofBits .f32 0x40000000#32 * cross (row x b) (row μ c)) := by
  have e1 : ∀ k : Fin 2048, idx_main_v1 (idx_main_v2 (idx_main_v7 (ix2 b c))) k = ix2 b k := fun k =>
    funext fun a => Fin.ext (by match a with | ⟨0, _⟩ => rfl | ⟨1, _⟩ => rfl)
  have e4 : ∀ k : Fin 2048, idx_main_v4 (idx_main_v6 (idx_main_v8 (ix2 b c))) k = ix2 c k := fun k =>
    funext fun a => Fin.ext (by match a with | ⟨0, _⟩ => rfl | ⟨1, _⟩ => rfl)
  have el : ∀ k : Fin 2048, lidx_main_v5 (ix2 b c) k = ix2 b k := fun k =>
    funext fun a => Fin.ext (by match a with | ⟨0, _⟩ => rfl | ⟨1, _⟩ => rfl)
  have er : ∀ k : Fin 2048, ridx_main_v5 (ix2 b c) k = ix2 c k := fun k =>
    funext fun a => Fin.ext (by match a with | ⟨0, _⟩ => rfl | ⟨1, _⟩ => rfl)
  rw [val_main_v13_apply, val_main_v12_apply, val_main_v9_apply, val_main_v7_apply, val_main_v2_apply, val_main_v1_apply,
    val_main_v8_apply, val_main_v6_apply, val_main_v4_apply, val_main_v11_apply, val_main_v10_apply, val_main_v5_apply]
  simp only [e1, e4, el, er, val_main_v0_apply, val_main_v3_apply, val_main_cst_apply, val_main_cst_0_apply, val_main_cst_1_apply,
    Ideal.hostNegf_def, Ideal.negf_def, Ideal.subf_def, Ideal.addf_def, Ideal.mulf_def, Ideal.ofBits_def]
  rfl

end Cert.SqDist.Ref

end
-- ==== Proof.Finite.lean ====
/-
  The precondition, read entry by entry: it says every sample entry and every class-mean entry has absolute value below
  `+∞`, tested over the whole of each array and the two tests conjoined; so every entry of both is a real number.
-/
import proofs.«132380_j39298950758648_2_alg».proof.Defs
import proofs.«132380_j39298950758648_2_alg».proof.Proof.Gen.KernelIdeal
import proofs.«132380_j39298950758648_2_alg».proof.Proof.Gen.Pre_finite_inputs
import proofs.«132380_j39298950758648_2_alg».proof.Proof.Spec
import Idealize.ShloMosaic.Lib.ReduceAll

noncomputable section

namespace Cert.SqDist.Finite

open Idealize.ShloMosaic Idealize.ShloMosaic.ValueIdx Idealize.SL.Sem

instance : Subsingleton Cert.Pre_finite_inputs.S_.Idx := ⟨fun a b => funext fun d => d.elim0⟩

/-- Both arguments' entries are reals wherever the precondition's function gives 1. -/
theorem entries_real (x : FVec Ideal Cert.Pre_finite_inputs.S8192x2048 .f32) (μ : FVec Ideal Cert.Pre_finite_inputs.S10000x2048 .f32)
    (h : Cert.Pre_finite_inputs.fn (F := Ideal) x μ = fun _ => 1#1) :
    (∀ i, IsReal (x i)) ∧ (∀ i, IsReal (μ i)) := by
  have h0 := congrFun h ix0
  dsimp only [Cert.Pre_finite_inputs.fn] at h0
  obtain ⟨ha, hb⟩ := IntOp.andi_eq_one.1 h0
  exact ⟨fun i => isReal_of_abs_lt_inf (Host.reduce_andi_all _ _ _ _ _ ha i),
    fun i => isReal_of_abs_lt_inf (Host.reduce_andi_all _ _ _ _ _ hb i)⟩

end Cert.SqDist.Finite

end
-- ==== Proof.lean ====
/-
  The negative squared distance from each of 8192 samples to each of 10000 class means, two ways.

  The kernel program pads the means to 10240 rows, forms the samples' and the padded means' squared norms on the host,
  launches a 5 × 32 grid whose point `(j, i)` stores `2 · X_i M_jᵀ − s_i − r_j` for a block of 256 samples and 2048 means,
  and keeps the first 10000 columns.  The reference forms `−((‖x‖² + ‖μ‖²) − 2 · x μᵀ)` on the host.  Read exactly, on the
  extended reals, both are at `(b, c)`
      2 ⟨x_b, μ_c⟩ − ‖x_b‖² − ‖μ_c‖²     and     −((‖x_b‖² + ‖μ_c‖²) − 2 ⟨x_b, μ_c⟩),
  equal when every entry is a real number (the precondition), since then every sum above is a real and the sign
  distributes; at infinities it would not.  The appended rows of the means never reach a kept column.

  The modules: Spec (the arithmetic on rows), RefSide (the reference at an index), Payload (the kernel body's store at an
  index), Region (the launch as one function of its windows' arrays), Entry (those arrays from the arguments), Result (the
  kernel program's result at an index), Finite (the precondition entry by entry).
-/
import proofs.«132380_j39298950758648_2_alg».proof.Defs
import proofs.«132380_j39298950758648_2_alg».proof.Proof.Gen.Kernel
import proofs.«132380_j39298950758648_2_alg».proof.Proof.Gen.Kernel.Frame
import proofs.«132380_j39298950758648_2_alg».proof.Proof.Gen.KernelIdeal
import proofs.«132380_j39298950758648_2_alg».proof.Proof.Gen.KernelIdeal.Frame
import proofs.«132380_j39298950758648_2_alg».proof.Proof.Gen.ReferenceIdeal
import proofs.«132380_j39298950758648_2_alg».proof.Proof.Gen.ReferenceIdeal.Run
import proofs.«132380_j39298950758648_2_alg».proof.Proof.Gen.ReferenceIdeal.Read
import proofs.«132380_j39298950758648_2_alg».proof.Proof.Gen.Pre_finite_inputs
import proofs.«132380_j39298950758648_2_alg».proof.Proof.Result
import proofs.«132380_j39298950758648_2_alg».proof.Proof.RefSide
import proofs.«132380_j39298950758648_2_alg».proof.Proof.Finite
import Idealize.ShloMosaic.Adequacy
import Idealize.ShloMosaic.Init

noncomputable section

namespace Cert.Proof

open Idealize.ShloMosaic Idealize.ShloMosaic.ValueIdx Idealize.SL.Sem Cert.SqDist

/-- On finite arguments the reference's result is the common one: the sign distributed over real sums. -/
theorem reference_common (x : Cert.ReferenceIdeal.S8192x2048.Idx → EReal) (μ : Cert.ReferenceIdeal.S10000x2048.Idx → EReal)
    (hx : ∀ i, IsReal (x i)) (hμ : ∀ i, IsReal (μ i)) :
    Cert.ReferenceIdeal.Read.val_main_v13 (F := Ideal) x μ = negSqDist x μ := by
  funext i
  obtain ⟨b, q, rfl⟩ : ∃ (b : Fin 8192) (q : Fin 10000), i = ix2 b q := ⟨i 0, i 1, eq_ix2 i⟩
  rw [Cert.SqDist.Ref.result_apply]
  exact forms_eq isReal_twoLit isReal_zeroLit (fun k => hx _) (fun k => hμ _)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the common result of the (agreeing, finite) arguments. -/
theorem algebraic : Cert.algebraic_KernelIdeal_ReferenceIdeal := by
  intro m ρ m' ρ' hpre hagree
  refine ⟨fun c => negSqDist (Cert.SqDist.Entry.xs m c) (Cert.SqDist.Entry.mus m c), Cert.SqDist.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v13_eq]
  obtain ⟨hx, hμ⟩ := Cert.SqDist.Finite.entries_real _ _ (hpre c)
  exact reference_common _ _ hx hμ

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
